-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x256 : Shape := ⟨3, ![4096, 32, 256]⟩
abbrev S4096x32 : Shape := ⟨2, ![4096, 32]⟩
abbrev S_ : Shape := ⟨0, ![]⟩

class Facts : Prop where
  bcast_S_S4096x32x256 : S_.BroadcastsInDim S4096x32x256 (![] : Fin 0 → Fin S4096x32x256.rank)
  reducesTo_S4096x32x256_S_d0_1_2 : S4096x32x256.ReducesTo [0, 1, 2] S_
  h_S_ : 0 < S_.numel

variable [Facts]

def fn {F : FTy → Type} [FloatOps F] (main_arg0 : FVec F S4096x32x256 .f32) (main_arg1 : IVec S4096x32 32) : IVec S_ 1 :=
  let main_v0 : FVec F S4096x32x256 .f32 := Host.absf main_arg0
  let main_cst : FVec F S_ .f32 := constant S_ .f32 0x7F800000#32
  let main_v1 : FVec F S4096x32x256 .f32 := broadcastInDim S4096x32x256 ![] bcast_S_S4096x32x256 main_cst
  let main_v2 : IVec S4096x32x256 1 := cmpf .olt main_v0 main_v1
  let main_c : IVec S_ 1 := constantI S_ 1 1#1
  let main_v3 : IVec S_ 1 := (fun x v => Host.reduce IntOp.andi x v reducesTo_S4096x32x256_S_d0_1_2 h_S_) main_v2 main_c
  main_v3
-- ==== Kernel.lean ====
abbrev S4096x32x256 : Shape := ⟨3, ![4096, 32, 256]⟩
abbrev S4096x32 : Shape := ⟨2, ![4096, 32]⟩
abbrev S1x1 : Shape := ⟨2, ![1, 1]⟩
abbrev S128x32x256 : Shape := ⟨3, ![128, 32, 256]⟩
abbrev S128x32 : Shape := ⟨2, ![128, 32]⟩
abbrev S128x32x1 : Shape := ⟨3, ![128, 32, 1]⟩
abbrev S128x32x32 : Shape := ⟨3, ![128, 32, 32]⟩
abbrev S128x1x32 : Shape := ⟨3, ![128, 1, 32]⟩
abbrev S32x32 : Shape := ⟨2, ![32, 32]⟩
abbrev S1x32x32 : Shape := ⟨3, ![1, 32, 32]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4096x32x256, .f32⟩
  | .hbm, ⟨1, _⟩ => ⟨S4096x32, .i32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S128x32x256, .f32⟩
  | .local _ .vmem, ⟨1, _⟩ => ⟨S128x32x256, .f32⟩
  | .local _ .vmem, ⟨2, _⟩ => ⟨S128x32, .i32⟩
  | .local _ .vmem, ⟨3, _⟩ => ⟨S128x32, .i32⟩
  | .local _ .vmem, ⟨4, _⟩ => ⟨S1x1, .f32⟩
  | _, _ => ⟨S4096x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S128x32x256_S128x32x256_0_0_0 : ∀ a, (![0, 0, 0] : Fin 3 → Nat) a + S128x32x256.size a ≤ S128x32x256.size a
  h_S128x32x256 : 0 < S128x32x256.numel
  reduces_S128x32x256_S128x32 : S128x32x256.Reduces [2] S128x32
  shapeCasts_S128x32_S128x32x1 : S128x32.ShapeCasts S128x32x1
  broadcasts_S128x32x1_S128x32x256 : S128x32x1.Broadcasts S128x32x256
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x1x32 : S128x32.ShapeCasts S128x1x32
  broadcasts_S128x32x1_S128x32x32 : S128x32x1.Broadcasts S128x32x32
  broadcasts_S128x1x32_S128x32x32 : S128x1x32.Broadcasts S128x32x32
  iota_S32x32_d0_w32 : S32x32.Iotas .tc 32 [0]
  iota_S32x32_d1_w32 : S32x32.Iotas .tc 32 [1]
  natLt_1_32 : 1 < 32
  shapeCasts_S32x32_S1x32x32 : S32x32.ShapeCasts S1x32x32
  broadcasts_S1x32x32_S128x32x32 : S1x32x32.Broadcasts S128x32x32
  reduces_S128x32x32_S128x32 : S128x32x32.Reduces [2] S128x32
  reduces_S128x32_S128 : S128x32.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  dot_S128x32x256_S128x32x256_S128x32x32_2_2_1_1_0_0_wf : DotDims.WF S128x32x256 S128x32x256 S128x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x256.size a ≤ S4096x32x256.size a
  hwx0_0 : ∀ i : grid0.Coords, EltTy.bits .f32 = 32 ∨ (Rect.block (s := S4096x32x256) S128x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S4096x32.size a
  hwx0_1 : ∀ i : grid0.Coords, EltTy.bits .i32 = 32 ∨ (Rect.block (s := S4096x32) S128x32.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S128x32x256_S128x32x256_S128x32x32_2_2_1_1_0_0 : DotDims S128x32x256 S128x32x256 S128x32x32 where
  lhsContracting := [2]
  rhsContracting := [2]
  lhsNonContracting := [1]
  rhsNonContracting := [1]
  lhsBatch := [0]
  rhsBatch := [0]
  wf := dot_S128x32x256_S128x32x256_S128x32x32_2_2_1_1_0_0_wf

abbrev win0_0 : Pipeline.Window sig grid0 :=
  Pipeline.Window.ofSpec (Memref.whole main_arg0) S128x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32x256 : Shape := ⟨3, ![4096, 32, 256]⟩
abbrev S4096x32 : Shape := ⟨2, ![4096, 32]⟩
abbrev S_ : Shape := ⟨0, ![]⟩
abbrev S4096x32x1 : Shape := ⟨3, ![4096, 32, 1]⟩
abbrev S4096x32x32 : Shape := ⟨3, ![4096, 32, 32]⟩
abbrev S4096x1x32 : Shape := ⟨3, ![4096, 1, 32]⟩
abbrev S32x32 : Shape := ⟨2, ![32, 32]⟩
abbrev S1x32x32 : Shape := ⟨3, ![1, 32, 32]⟩

abbrev nBuf : Space → Nat
  | .hbm => 47
  | .vmem => 0
  | .smem => 0
  | _ => 0

abbrev bufTy : (tb : Table) → Fin (tcTables nBuf tb) → BufTy
  | .hbm, ⟨0, _⟩ => ⟨S4096x32x256, .f32⟩
  | .hbm, ⟨1, _⟩ => ⟨S4096x32, .i32⟩
  | .hbm, ⟨2, _⟩ => ⟨S4096x32x256, .f32⟩
  | .hbm, ⟨3, _⟩ => ⟨S_, .f32⟩
  | .hbm, ⟨4, _⟩ => ⟨S4096x32, .f32⟩
  | .hbm, ⟨5, _⟩ => ⟨S4096x32x1, .f32⟩
  | .hbm, ⟨6, _⟩ => ⟨S4096x32x1, .f32⟩
  | .hbm, ⟨7, _⟩ => ⟨S_, .f32⟩
  | .hbm, ⟨8, _⟩ => ⟨S4096x32x1, .f32⟩
  | .hbm, ⟨9, _⟩ => ⟨S4096x32x1, .f32⟩
  | .hbm, ⟨10, _⟩ => ⟨S4096x32x256, .f32⟩
  | .hbm, ⟨11, _⟩ => ⟨S4096x32x256, .f32⟩
  | .hbm, ⟨12, _⟩ => ⟨S4096x32x32, .f32⟩
  | .hbm, ⟨13, _⟩ => ⟨S4096x32x1, .i32⟩
  | .hbm, ⟨14, _⟩ => ⟨S4096x1x32, .i32⟩
  | .hbm, ⟨15, _⟩ => ⟨S4096x32x32, .i32⟩
  | .hbm, ⟨16, _⟩ => ⟨S4096x32x32, .i32⟩
  | .hbm, ⟨17, _⟩ => ⟨S4096x32x32, .i1⟩
  | .hbm, ⟨18, _⟩ => ⟨S_, .f32⟩
  | .hbm, ⟨19, _⟩ => ⟨S4096x32x32, .f32⟩
  | .hbm, ⟨20, _⟩ => ⟨S4096x32x32, .f32⟩
  | .hbm, ⟨21, _⟩ => ⟨S_, .f32⟩
  | .hbm, ⟨22, _⟩ => ⟨S4096x32x32, .f32⟩
  | .hbm, ⟨23, _⟩ => ⟨S4096x32x32, .f32⟩
  | .hbm, ⟨24, _⟩ => ⟨S_, .f32⟩
  | .hbm, ⟨25, _⟩ => ⟨S4096x32x32, .f32⟩
  | .hbm, ⟨26, _⟩ => ⟨S4096x32x32, .f32⟩
  | .hbm, ⟨27, _⟩ => ⟨S4096x32x32, .f32⟩
  | .hbm, ⟨28, _⟩ => ⟨S_, .i1⟩
  | .hbm, ⟨29, _⟩ => ⟨S32x32, .i1⟩
  | .hbm, ⟨30, _⟩ => ⟨S32x32, .i32⟩
  | .hbm, ⟨31, _⟩ => ⟨S_, .i32⟩
  | .hbm, ⟨32, _⟩ => ⟨S32x32, .i32⟩
  | .hbm, ⟨33, _⟩ => ⟨S32x32, .i32⟩
  | .hbm, ⟨34, _⟩ => ⟨S32x32, .i32⟩
  | .hbm, ⟨35, _⟩ => ⟨S32x32, .i1⟩
  | .hbm, ⟨36, _⟩ => ⟨S_, .i1⟩
  | .hbm, ⟨37, _⟩ => ⟨S32x32, .i1⟩
  | .hbm, ⟨38, _⟩ => ⟨S32x32, .i1⟩
  | .hbm, ⟨39, _⟩ => ⟨S1x32x32, .i1⟩
  | .hbm, ⟨40, _⟩ => ⟨S1x32x32, .f32⟩
  | .hbm, ⟨41, _⟩ => ⟨S4096x32x32, .f32⟩
  | .hbm, ⟨42, _⟩ => ⟨S4096x32x32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_call3_v0 : Ref sig .tc := ⟨.hbm, 30, rfl⟩
abbrev main_call3_c : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_call3_c_0 : Ref sig .tc := ⟨.hbm, 36, rfl⟩
abbrev main_call3_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩

abbrev nD : Nat := 1
abbrev τ : Topo := Topo.v7x

variable {F : FTy → Type} [FloatOps F]

class Facts₀ : Prop where
  reducesTo_S4096x32x256_S4096x32_d2 : S4096x32x256.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x256_0_1_2 : S4096x32x1.BroadcastsInDim S4096x32x256 (![0, 1, 2] : Fin 3 → Fin S4096x32x256.rank)
  bcast_S4096x32_S4096x1x32_0_2 : S4096x32.BroadcastsInDim S4096x1x32 (![0, 2] : Fin 2 → Fin S4096x1x32.rank)
  bcast_S4096x32x1_S4096x32x32_0_1_2 : S4096x32x1.BroadcastsInDim S4096x32x32 (![0, 1, 2] : Fin 3 → Fin S4096x32x32.rank)
  bcast_S4096x1x32_S4096x32x32_0_1_2 : S4096x1x32.BroadcastsInDim S4096x32x32 (![0, 1, 2] : Fin 3 → Fin S4096x32x32.rank)
  bcast_S_S4096x32x32 : S_.BroadcastsInDim S4096x32x32 (![] : Fin 0 → Fin S4096x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S4096x32x32_0_1_2 : S1x32x32.BroadcastsInDim S4096x32x32 (![0, 1, 2] : Fin 3 → Fin S4096x32x32.rank)
  reducesTo_S4096x32x32_S_d0_1_2 : S4096x32x32.ReducesTo [0, 1, 2] S_
  dot_S4096x32x256_S4096x32x256_S4096x32x32_2_2_1_1_0_0_wf : DotDims.WF S4096x32x256 S4096x32x256 S4096x32x32 [2] [2] [1] [1] [0] [0]

variable [Facts₀]

def dot_S4096x32x256_S4096x32x256_S4096x32x32_2_2_1_1_0_0 : DotDims S4096x32x256 S4096x32x256 S4096x32x32 where
  lhsContracting := [2]
  rhsContracting := [2]
  lhsNonContracting := [1]
  rhsNonContracting := [1]
  lhsBatch := [0]
  rhsBatch := [0]
  wf := dot_S4096x32x256_S4096x32x256_S4096x32x32_2_2_1_1_0_0_wf

class Facts : Prop extends Facts₀ where

variable [Facts]
-- ==== Proof.BodyPieces.lean ====
/-
  What one run of the kernel body leaves in the 1×1 accumulator block.

  The body computes the block's partial loss `k0_pay3 x0 x1` (a 1×1 vector: the sum, over the 128 poems of the
  block, of the masked pair losses) from the two input blocks, and adds it to the accumulator.  At the first grid
  point the accumulator is first overwritten by the zero splat `k0_pay2`, so the body leaves `0 + partial`; at
  every later point it leaves `previous + partial`.  Both statements hold for any float instance.
-/
import proofs.«152575_j80152679678796_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BodyPieces

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A later grid point: the accumulator, holding `xo`, ends at `xo + partial`. -/
theorem out_later (c : Dev nD) (i : grid0.Coords) (a1 : Memref sig .tc .vmem S128x32x256 .f32) (h1 : a1.IsWhole)
    (a2 : Memref sig .tc .vmem S128x32 .i32) (h2 : a2.IsWhole) (a3 : Memref sig .tc .vmem S1x1 .f32) (h3 : a3.IsWhole)
    (hc : ¬cond0_0 i) (x0 : Vec F S128x32x256 .f32) (x1 : Vec F S128x32 .i32) (xo : Vec F S1x1 .f32) :
    out0_B_2 c i a1 h1 a2 h2 a3 h3 hc x0 x1 xo = addf xo (k0_pay3 x0 x1) := by
  unfold out0_B_2
  rw [View.read_writes_eq_canon _ _ _ (cover0_B_2 c i a1 h1 a2 h2 a3 h3 hc x0 x1 xo)]
  unfold kernelRun0_B
  dsimp only
  sl_unfold_words
  rw [View.canon_unit_zero off2]
  unfold k0_pay1
  simp only [View.readAt_eq_ld, h1.read_unread, h2.read_unread, h3.read_unread, View.ld_unit_zero (S := S128x32x256) off3,
    View.ld_unit_zero (S := S128x32) off2, View.ld_unit_zero (S := S1x1) off2, shapeCast_self]

/-- The first grid point: the accumulator is reset to the zero splat, read back, and ends at `0 + partial`. -/
theorem out_first (c : Dev nD) (i : grid0.Coords) (a1 : Memref sig .tc .vmem S128x32x256 .f32) (h1 : a1.IsWhole)
    (a2 : Memref sig .tc .vmem S128x32 .i32) (h2 : a2.IsWhole) (a3 : Memref sig .tc .vmem S1x1 .f32) (h3 : a3.IsWhole)
    (hc : cond0_0 i) (x0 : Vec F S128x32x256 .f32) (x1 : Vec F S128x32 .i32) :
    out0_A_2 c i a1 h1 a2 h2 a3 h3 hc x0 x1 = addf (k0_pay2 (F := F)) (k0_pay3 x0 x1) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) off2, View.readCov_unit_zero (S := S1x1) _ off2]
  unfold k0_pay1
  simp only [View.readAt_eq_ld, h1.read_unread, h2.read_unread, View.ld_unit_zero (S := S128x32x256) off3,
    View.ld_unit_zero (S := S128x32) off2, View.ld_unit_zero (S := S1x1) off2, shapeCast_self]

end Cert.KernelIdeal.BodyPieces

end
-- ==== Proof.PairSum.lean ====
/-
  The rhyme loss as a function on the extended reals, and the two re-indexings of its sum.

  One poem is 32 line-end embeddings `x i : Fin 256 → EReal` with rhyme labels `s i`.  Each line is scaled to unit
  length (its norm floored at the f32 word nearest 1e-8), `sim i j` is the inner product of the scaled lines `i` and
  `j`, and the pair `(i, j)` costs `1 - sim` when the two lines carry the same label and `max (sim - 1/2) 0`
  otherwise; only pairs with `i < j` count.  A batch's loss is the sum over its poems, and the result is that sum
  divided by the number of counted pairs (the f32 word 2031616).  Every float word is kept as `Ideal.ofBits` of its
  pattern: both programs spell the same words, so none is ever evaluated.

  The sums are finite sums in the additive commutative monoid of the extended reals, so they may be taken in any
  order and grouping: a sum over a rank-3 index set is the triple sum over its coordinates (`sum_idx3`), and a sum
  over 4096 batch entries is the sum over 32 blocks of the sums over the 128 entries of each block (`sum_blocks`).
-/
import Idealize.ShloMosaic.PureOps.Ideal
import Idealize.ShloMosaic.PureOps.Ideal.Laws
import Idealize.ShloMosaic.Lib.ValueIdx

noncomputable section

open scoped BigOperators

namespace Cert.PairSum

open Idealize.ShloMosaic Idealize.ShloMosaic.ValueIdx

/-! ## One poem -/

section Poem

variable (x : Fin 32 → Fin 256 → EReal) (s : Fin 32 → BitVec 32)

/-- The squared length of line `i`. -/
def sqNorm (i : Fin 32) : EReal := ∑ d : Fin 256, x i d * x i d

/-- Line `i` scaled to unit length, its norm floored at the word nearest 1e-8. -/
def unitv (i : Fin 32) (d : Fin 256) : EReal :=
  Ideal.div (x i d) (max (Ideal.sqrt (sqNorm x i)) (Ideal.ofBits .f32 0x322BCC77#32))

/-- The cosine similarity of lines `i` and `j`. -/
def sim (i j : Fin 32) : EReal := ∑ d : Fin 256, unitv x i d * unitv x j d

/-- The strict upper triangle, as a factor. -/
def upper (i j : Fin 32) : EReal := if i < j then 1 else 0

/-- What the pair `(i, j)` costs. -/
def pair (i j : Fin 32) : EReal :=
  (if s i = s j then Ideal.ofBits .f32 0x3F800000#32 - sim x i j
    else max (sim x i j - Ideal.ofBits .f32 0x3F000000#32) (Ideal.ofBits .f32 0x00000000#32)) * upper i j

/-- The loss of one poem: all its pairs. -/
def poem : EReal := ∑ i : Fin 32, ∑ j : Fin 32, pair x s i j

end Poem

/-! ## A batch of poems -/

/-- Poem `b` of a batch of embeddings. -/
def lineOf (B : Nat) (A : (⟨3, ![B, 32, 256]⟩ : Shape).Idx → EReal) (b : Fin B) : Fin 32 → Fin 256 → EReal :=
  fun i d => A (ix3 b i d)

/-- Poem `b`'s rhyme labels. -/
def segOf (B : Nat) (S : (⟨2, ![B, 32]⟩ : Shape).Idx → BitVec 32) (b : Fin B) : Fin 32 → BitVec 32 :=
  fun i => S (ix2 b i)

/-- The summed loss of a batch of `B` poems. -/
def batch (B : Nat) (A : (⟨3, ![B, 32, 256]⟩ : Shape).Idx → EReal) (S : (⟨2, ![B, 32]⟩ : Shape).Idx → BitVec 32) : EReal :=
  ∑ b : Fin B, poem (lineOf B A b) (segOf B S b)

/-- The result: the summed loss over the number of counted pairs, as a rank-0 array. -/
def mean (tot : EReal) : (⟨0, ![]⟩ : Shape).Idx → EReal := fun _ => Ideal.div tot (Ideal.ofBits .f32 0x49F80000#32)

/-! ## Re-indexing the sums -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Entry `r` of block `t` is batch entry `128 t + r`. -/
def entry (t : Fin 32) (r : Fin 128) : Fin 4096 := ⟨128 * t.val + r.val, by have := t.isLt; have := r.isLt; omega⟩

/-- The 4096 batch entries are 32 blocks of 128. -/
def blockEquiv : Fin 32 × Fin 128 ≃ Fin 4096 where
  toFun p := entry p.1 p.2
  invFun b := (⟨b.val / 128, by have := b.isLt; omega⟩, ⟨b.val % 128, Nat.mod_lt _ (by norm_num)⟩)
  left_inv p := by
    obtain ⟨t, r⟩ := p
    have ht := t.isLt
    have hr := r.isLt
    exact Prod.ext (Fin.ext (by show (128 * t.val + r.val) / 128 = t.val; omega))
      (Fin.ext (by show (128 * t.val + r.val) % 128 = r.val; omega))
  right_inv b := Fin.ext (by show 128 * (b.val / 128) + b.val % 128 = b.val; omega)

/-- A sum over the batch is the sum over the blocks of the sums inside each block. -/
theorem sum_blocks {M : Type*} [AddCommMonoid M] (f : Fin 4096 → M) :
    ∑ b : Fin 4096, f b = ∑ t : Fin 32, ∑ r : Fin 128, f (entry t r) := by
  rw [← Equiv.sum_comp blockEquiv f, Fintype.sum_prod_type]
  rfl

end Cert.PairSum

end
-- ==== Proof.Masks.lean ====
/-
  The two masks of the loss, as each program computes them.

  THE RHYME MASK.  Both programs compare the two lines' labels for equality and select between the two branches of
  the pair loss on the one-bit answer: a select on `cmpi eq a b` is an `if` on `a = b`.

  THE STRICT UPPER TRIANGLE of a 32×32 grid.

  The kernel compares the row index with the column index (signed `<`), widens the one-bit answer to a word and
  converts the word, read signed, to a float.  The reference compares `row + 0 ≥ column`, selects `false` where
  that holds and `true` elsewhere, and converts the bit, read unsigned.  For indices below 32 both give `1` when the
  row is strictly above the diagonal's column (`i < j`) and `0` otherwise: the bit is decided over the 1024 pairs,
  and the two conversions of `1` and `0` are the extended reals `1` and `0`.
-/
import Idealize.ShloMosaic.PureOps.Ideal
import Idealize.ShloMosaic.PureOps.Ideal.Laws
import Idealize.ShloMosaic.Lib.ValueIdx
import Idealize.ShloMosaic.Lib.Affine

noncomputable section

namespace Cert.Masks

open Idealize.ShloMosaic Idealize.ShloMosaic.ValueIdx

/-- A select on the equality of two words is an `if` on it. -/
theorem select_cmpi_eq {α : Type} (a b : BitVec 32) (u v : α) :
    Scalar.select (IntOp.cmpi .eq a b) u v = if a = b then u else v := by
  by_cases h : a = b
  · rw [if_pos h, (IntOp.cmpi_eq.mpr h : IntOp.cmpi .eq a b = 1#1), select_one]
  · rw [if_neg h, eq_zero_of_ne_one (fun h1 => h (IntOp.cmpi_eq.mp h1)), select_zero]

/-- The kernel's bit: signed `i < j` on the 32-bit words of two indices below 32. -/
theorem slt_bit : ∀ i j : Fin 32,
    IntOp.cmpi .slt (BitVec.ofNat 32 i.val) (BitVec.ofNat 32 j.val) = if i < j then 1#1 else 0#1 := by
  decide +kernel

/-- The reference's bit: `false` where `i + 0 ≥ j` (signed), `true` elsewhere. -/
theorem nge_bit : ∀ i j : Fin 32,
    Scalar.select (IntOp.cmpi .sge (IntOp.addi (BitVec.ofNat 32 i.val) 0#32) (BitVec.ofNat 32 j.val)) (0#1 : BitVec 1) (1#1 : BitVec 1)
      = if i < j then 1#1 else 0#1 := by
  decide +kernel

/-- The kernel's factor: the bit widened to a word and read signed. -/
theorem kernel_factor (i j : Fin 32) :
    FloatOps.sitofp (F := Ideal) .f32 ((IntOp.cmpi .slt (BitVec.ofNat 32 i.val) (BitVec.ofNat 32 j.val)).setWidth 32)
      = if i < j then (1 : EReal) else 0 := by
  rw [slt_bit]
  by_cases h : i < j
  · rw [if_pos h, if_pos h]
    show (((((1#1 : BitVec 1).setWidth 32).toInt : ℤ) : ℝ) : EReal) = 1
    rw [show ((1#1 : BitVec 1).setWidth 32).toInt = 1 from by decide]
    simp
  · rw [if_neg h, if_neg h]
    show (((((0#1 : BitVec 1).setWidth 32).toInt : ℤ) : ℝ) : EReal) = 0
    rw [show ((0#1 : BitVec 1).setWidth 32).toInt = 0 from by decide]
    simp

/-- The reference's factor: the bit read unsigned. -/
theorem reference_factor (i j : Fin 32) :
    FloatOps.uitofp (F := Ideal) .f32
        (Scalar.select (IntOp.cmpi .sge (IntOp.addi (BitVec.ofNat 32 i.val) 0#32) (BitVec.ofNat 32 j.val)) (0#1 : BitVec 1) (1#1 : BitVec 1))
      = if i < j then (1 : EReal) else 0 := by
  rw [nge_bit]
  by_cases h : i < j
  · rw [if_pos h, if_pos h]
    show ((((1#1 : BitVec 1).toNat : ℕ) : ℝ) : EReal) = 1
    rw [show (1#1 : BitVec 1).toNat = 1 from by decide]
    simp
  · rw [if_neg h, if_neg h]
    show ((((0#1 : BitVec 1).toNat : ℕ) : ℝ) : EReal) = 0
    rw [show (0#1 : BitVec 1).toNat = 0 from by decide]
    simp

end Cert.Masks

end
-- ==== Proof.LibBatchLayout.lean ====
/-
  Layout operations on a batch of matrices, read at an index written by coordinates.

  For any extents `a`, `b`, `c` and any element type:
    * a shape cast that appends a unit axis, `[a, b] → [a, b, 1]`, and the broadcast along it, `[a, b, 1] → [a, b, c]`
      (a per-row value kept as a column and spread over the row);
    * a shape cast that inserts a unit axis in the middle, `[a, b] → [a, 1, b]`, and the broadcast along it,
      `[a, 1, b] → [a, c, b]` (a row spread over the rows of a square);
    * the broadcast of one matrix over a batch, `[1, b, c] → [a, b, c]`;
    * a vector kept as a column, `[a] → [a, 1]`.
  Each is the library's general statement (`shapeCast_apply`: equal row-major positions; `broadcastTo_apply`: the
  operand's unit axes read at 0) at these shapes, with both indices spelt by `ix1` / `ix2` / `ix3`.
  It names no program.
-/
import Idealize.ShloMosaic.Lib.Pipeline.Value
import Idealize.ShloMosaic.Lib.ValueIdx

noncomputable section

namespace Cert.BatchLayout

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array broadcast to `[a, c, b]` reads, at `(p, r, q)`, the operand at `(p, 0, q)`. -/
theorem broadcastTo_a1b_acb_apply {a b c : ℕ} (v : (⟨3, ![a, 1, b]⟩ : Shape).Idx → α)
    (h : (⟨3, ![a, 1, b]⟩ : Shape).Broadcasts ⟨3, ![a, c, b]⟩) (p : Fin a) (r : Fin c) (q : Fin b) :
    broadcastTo ⟨3, ![a, c, b]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A `[1, b, c]` array broadcast to `[a, b, c]` reads, at `(p, q, r)`, the operand's one matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.BatchLayout

end
-- ==== Proof.BlockLoss.lean ====
/-
  The partial loss the kernel body computes from one block, at the exact instance.

  The body's result is a 1×1 vector: the block's masked pair losses `[128, 32, 32]` summed along the second line
  index, then along the first, then along the 128 poems.  Read at an index each stage is the corresponding
  quantity of `PairSum` for poem `r` of the block:
    * the lane sum of the squares is the squared length of the line, and the line divided by its floored norm
      (kept as a column and spread over the 256 features) is the scaled line — the change of format before the
      matrix product is the identity;
    * the batched matrix product into the zero accumulator contracts the feature axis: the cosine similarity;
    * the two label broadcasts compared give the rhyme mask, the two coordinate iotas compared give the triangle;
    * the three nested sums are the sum over the block's poems of the sums over their pairs.
  So the 1×1 vector holds the batch loss of the 128 poems of the block.
-/
import proofs.«152575_j80152679678796_2_alg».proof.Proof.Gen.KernelIdeal.Skeleton
import proofs.«152575_j80152679678796_2_alg».proof.Proof.PairSum
import proofs.«152575_j80152679678796_2_alg».proof.Proof.Masks
import proofs.«152575_j80152679678796_2_alg».proof.Proof.LibBatchLayout
import Idealize.ShloMosaic.Lib.Pipeline.Value
import Idealize.ShloMosaic.Lib.ValueLayout
import Idealize.ShloMosaic.PureOps.Ideal.Laws

noncomputable section

open scoped BigOperators

namespace Cert.KernelIdeal.BlockLoss

open Cert.KernelIdeal Cert.KernelIdeal.Gen Idealize.ShloMosaic Idealize.ShloMosaic.ValueIdx Cert.PairSum Cert.BatchLayout

/-! ## The sums along one axis, at these shapes -/

/-- The lane sum of a `[128, 32, 256]` array at `(r, i)`. -/
theorem lanes256 (v : FVec Ideal S128x32x256 .f32) (h : S128x32x256.Reduces [2] S128x32) (hφ : FKind.Formats .f32)
    (hacc : (0x00000000#32 : BitVec 32) = FKind.add.neutral .f32 hφ) (r : Fin 128) (i : Fin 32) :
    multiReduction .add [2] S128x32 v 0x00000000#32 h hφ hacc (ix2 r i) = ∑ d : Fin 256, v (ix3 r i d) := by
  refine (Ideal.multiReduction_add_single v _ h hφ hacc (ix2 r i)).trans ?_
  refine Finset.sum_congr rfl fun d _ => congrArg v ?_
  exact funext fun a => Fin.ext (by match a with | ⟨0, _⟩ => rfl | ⟨1, _⟩ => rfl | ⟨2, _⟩ => rfl)

/-- The lane sum of a `[128, 32, 32]` array at `(r, i)`. -/
theorem lanes32 (v : FVec Ideal S128x32x32 .f32) (h : S128x32x32.Reduces [2] S128x32) (hφ : FKind.Formats .f32)
    (hacc : (0x00000000#32 : BitVec 32) = FKind.add.neutral .f32 hφ) (r : Fin 128) (i : Fin 32) :
    multiReduction .add [2] S128x32 v 0x00000000#32 h hφ hacc (ix2 r i) = ∑ j : Fin 32, v (ix3 r i j) := by
  refine (Ideal.multiReduction_add_single v _ h hφ hacc (ix2 r i)).trans ?_
  refine Finset.sum_congr rfl fun d _ => congrArg v ?_
  exact funext fun a => Fin.ext (by match a with | ⟨0, _⟩ => rfl | ⟨1, _⟩ => rfl | ⟨2, _⟩ => rfl)

/-- The row sum of a `[128, 32]` array at `r`. -/
theorem rows32 (v : FVec Ideal S128x32 .f32) (h : S128x32.Reduces [1] S128) (hφ : FKind.Formats .f32)
    (hacc : (0x00000000#32 : BitVec 32) = FKind.add.neutral .f32 hφ) (r : Fin 128) :
    multiReduction .add [1] S128 v 0x00000000#32 h hφ hacc (ix1 r) = ∑ i : Fin 32, v (ix2 r i) := by
  refine (Ideal.multiReduction_add_single v _ h hφ hacc (ix1 r)).trans ?_
  refine Finset.sum_congr rfl fun d _ => congrArg v ?_
  exact funext fun a => Fin.ext (by match a with | ⟨0, _⟩ => rfl | ⟨1, _⟩ => rfl)

/-- The column sum of a `[128, 1]` array. -/
theorem col128 (v : FVec Ideal S128x1 .f32) (h : S128x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 128, v (ix2 r u) := by
  refine (Ideal.multiReduction_add_single v _ h hφ hacc (ix1 u)).trans ?_
  refine Finset.sum_congr rfl fun d _ => congrArg v ?_
  exact funext fun a => Fin.ext (by match a with | ⟨0, _⟩ => rfl | ⟨1, _⟩ => rfl)

/-! ## The batched matrix product at an index -/

theorem lhs_0 (i : S128x32x32.Idx) (q : dot_S128x32x256_S128x32x256_S128x32x32_2_2_1_1_0_0.contr.Idx) : (dot_S128x32x256_S128x32x256_S128x32x32_2_2_1_1_0_0.lhsIdx i q 0).val = (i 0).val := by
  unfold DotDims.lhsIdx
  rw [dif_pos (show (0 : Fin S128x32x256.rank) ∈ dot_S128x32x256_S128x32x256_S128x32x32_2_2_1_1_0_0.lhsBatch by decide)]
  rfl
theorem lhs_1 (i : S128x32x32.Idx) (q : dot_S128x32x256_S128x32x256_S128x32x32_2_2_1_1_0_0.contr.Idx) : (dot_S128x32x256_S128x32x256_S128x32x32_2_2_1_1_0_0.lhsIdx i q 1).val = (i 1).val := by
  unfold DotDims.lhsIdx
  rw [dif_neg (show ¬(1 : Fin S128x32x256.rank) ∈ dot_S128x32x256_S128x32x256_S128x32x32_2_2_1_1_0_0.lhsBatch by decide),
    dif_pos (show (1 : Fin S128x32x256.rank) ∈ dot_S128x32x256_S128x32x256_S128x32x32_2_2_1_1_0_0.lhsNonContracting by decide)]
  rfl
theorem lhs_2 (i : S128x32x32.Idx) (q : dot_S128x32x256_S128x32x256_S128x32x32_2_2_1_1_0_0.contr.Idx) : (dot_S128x32x256_S128x32x256_S128x32x32_2_2_1_1_0_0.lhsIdx i q 2).val = (q ⟨0, by decide⟩).val :=
  dot_S128x32x256_S128x32x256_S128x32x32_2_2_1_1_0_0.lhsIdx_val_of_single rfl i q
theorem rhs_0 (i : S128x32x32.Idx) (q : dot_S128x32x256_S128x32x256_S128x32x32_2_2_1_1_0_0.contr.Idx) : (dot_S128x32x256_S128x32x256_S128x32x32_2_2_1_1_0_0.rhsIdx i q 0).val = (i 0).val := by
  unfold DotDims.rhsIdx
  rw [dif_pos (show (0 : Fin S128x32x256.rank) ∈ dot_S128x32x256_S128x32x256_S128x32x32_2_2_1_1_0_0.rhsBatch by decide)]
  rfl
theorem rhs_1 (i : S128x32x32.Idx) (q : dot_S128x32x256_S128x32x256_S128x32x32_2_2_1_1_0_0.contr.Idx) : (dot_S128x32x256_S128x32x256_S128x32x32_2_2_1_1_0_0.rhsIdx i q 1).val = (i 2).val := by
  unfold DotDims.rhsIdx
  rw [dif_neg (show ¬(1 : Fin S128x32x256.rank) ∈ dot_S128x32x256_S128x32x256_S128x32x32_2_2_1_1_0_0.rhsBatch by decide),
    dif_pos (show (1 : Fin S128x32x256.rank) ∈ dot_S128x32x256_S128x32x256_S128x32x32_2_2_1_1_0_0.rhsNonContracting by decide)]
  rfl
theorem rhs_2 (i : S128x32x32.Idx) (q : dot_S128x32x256_S128x32x256_S128x32x32_2_2_1_1_0_0.contr.Idx) : (dot_S128x32x256_S128x32x256_S128x32x32_2_2_1_1_0_0.rhsIdx i q 2).val = (q ⟨0, by decide⟩).val :=
  dot_S128x32x256_S128x32x256_S128x32x32_2_2_1_1_0_0.rhsIdx_val_of_single rfl i q

/-- The product of a `[128, 32, 256]` array with itself, batched over the first axis and contracting the last, into
    the zero accumulator: at `(r, i, j)` the inner product of rows `i` and `j` of matrix `r`. -/
theorem gram_apply {φ : FTy} (y : FVec Ideal S128x32x256 φ) (r : Fin 128) (i j : Fin 32) :
    matmul dot_S128x32x256_S128x32x256_S128x32x32_2_2_1_1_0_0 none y y (constant S128x32x32 .f32 0x00000000#32) (ix3 r i j)
      = ∑ k : Fin 256, y (ix3 r i k) * y (ix3 r j k) := by
  simp only [matmul]
  rw [Ideal.matmul_constant_zero_apply, ← Equiv.sum_comp (ValueIdx.contrEquiv1 dot_S128x32x256_S128x32x256_S128x32x32_2_2_1_1_0_0 256 rfl rfl).symm]
  refine Finset.sum_congr rfl fun k _ => ?_
  have hk := ValueIdx.contrEquiv1_symm_val dot_S128x32x256_S128x32x256_S128x32x32_2_2_1_1_0_0 256 rfl rfl k
  have el : dot_S128x32x256_S128x32x256_S128x32x32_2_2_1_1_0_0.lhsIdx (ix3 r i j) ((ValueIdx.contrEquiv1 dot_S128x32x256_S128x32x256_S128x32x32_2_2_1_1_0_0 256 rfl rfl).symm k) = ix3 r i k :=
    funext fun a => Fin.ext (by
      match a with
      | ⟨0, _⟩ => exact lhs_0 _ _
      | ⟨1, _⟩ => exact lhs_1 _ _
      | ⟨2, _⟩ => exact (lhs_2 _ _).trans hk)
  have er : dot_S128x32x256_S128x32x256_S128x32x32_2_2_1_1_0_0.rhsIdx (ix3 r i j) ((ValueIdx.contrEquiv1 dot_S128x32x256_S128x32x256_S128x32x32_2_2_1_1_0_0 256 rfl rfl).symm k) = ix3 r j k :=
    funext fun a => Fin.ext (by
      match a with
      | ⟨0, _⟩ => exact rhs_0 _ _
      | ⟨1, _⟩ => exact rhs_1 _ _
      | ⟨2, _⟩ => exact (rhs_2 _ _).trans hk)
  rw [el, er]

/-! ## The body's stages -/

/-- The squared lengths of the block's lines. -/
def sqs (x0 : Vec Ideal S128x32x256 .f32) : FVec Ideal S128x32 .f32 :=
  multiReduction .add [2] S128x32 (mulf x0 x0) 0x00000000#32 reduces_S128x32x256_S128x32 (.inl rfl) rfl

/-- The floored norms, kept as a column. -/
def floored (x0 : Vec Ideal S128x32x256 .f32) : FVec Ideal S128x32x1 .f32 :=
  maximumf (sqrt (shapeCast S128x32x1 (sqs x0) shapeCasts_S128x32_S128x32x1)) (broadcast S128x32x1 (Scalar.ofBits .f32 0x322BCC77#32))

/-- The scaled lines, in the matrix unit's input format. -/
def scaled (x0 : Vec Ideal S128x32x256 .f32) : FVec Ideal S128x32x256 .bf16 :=
  truncf .bf16 (divf x0 (broadcastTo S128x32x256 (floored x0) broadcasts_S128x32x1_S128x32x256)) bitsLt_bf16_f32

/-- The similarities. -/
def sims (x0 : Vec Ideal S128x32x256 .f32) : FVec Ideal S128x32x32 .f32 :=
  matmul dot_S128x32x256_S128x32x256_S128x32x32_2_2_1_1_0_0 none (scaled x0) (scaled x0) (constant S128x32x32 .f32 0x00000000#32)

/-- The rhyme mask. -/
def same (x1 : Vec Ideal S128x32 .i32) : IVec S128x32x32 1 :=
  cmpi .eq (broadcastTo S128x32x32 (shapeCast S128x32x1 x1 shapeCasts_S128x32_S128x32x1) broadcasts_S128x32x1_S128x32x32)
    (broadcastTo S128x32x32 (shapeCast S128x1x32 x1 shapeCasts_S128x32_S128x1x32) broadcasts_S128x1x32_S128x32x32)

/-- The triangle factor, spread over the block. -/
def tri : FVec Ideal S128x32x32 .f32 :=
  broadcastTo S128x32x32 (shapeCast S1x32x32 (sitofp .f32 (extui 32 (cmpi .slt (iota .tc S32x32 32 [0] iota_S32x32_d0_w32)
    (iota .tc S32x32 32 [1] iota_S32x32_d1_w32)) natLt_1_32)) shapeCasts_S32x32_S1x32x32) broadcasts_S1x32x32_S128x32x32

/-- The masked pair losses. -/
def masked (x0 : Vec Ideal S128x32x256 .f32) (x1 : Vec Ideal S128x32 .i32) : FVec Ideal S128x32x32 .f32 :=
  mulf (select (same x1) (subf (broadcast S128x32x32 (Scalar.ofBits .f32 0x3F800000#32)) (sims x0))
    (maximumf (subf (sims x0) (broadcast S128x32x32 (Scalar.ofBits .f32 0x3F000000#32)))
      (broadcast S128x32x32 (Scalar.ofBits .f32 0x00000000#32)))) tri

/-- The three nested sums. -/
def total (v : FVec Ideal S128x32x32 .f32) : FVec Ideal S1x1 .f32 :=
  shapeCast S1x1 (multiReduction .add [0] S1 (shapeCast S128x1 (multiReduction .add [1] S128
    (multiReduction .add [2] S128x32 v 0x00000000#32 reduces_S128x32x32_S128x32 (.inl rfl) rfl)
    0x00000000#32 reduces_S128x32_S128 (.inl rfl) rfl) shapeCasts_S128_S128x1)
    0x00000000#32 reduces_S128x1_S1 (.inl rfl) rfl) shapeCasts_S1_S1x1

/-- The body's partial loss is these stages composed. -/
theorem pay_eq (x0 : Vec Ideal S128x32x256 .f32) (x1 : Vec Ideal S128x32 .i32) :
    k0_pay3 (F := Ideal) x0 x1 = total (masked x0 x1) := rfl

/-! ## Each stage at an index -/

variable (x0 : Vec Ideal S128x32x256 .f32) (x1 : Vec Ideal S128x32 .i32)

theorem sqs_at (r : Fin 128) (i : Fin 32) : sqs x0 (ix2 r i) = sqNorm (lineOf 128 x0 r) i := by
  unfold sqs
  exact lanes256 _ _ _ _ r i

theorem floored_at (r : Fin 128) (i : Fin 32) (u : Fin 1) :
    floored x0 (ix3 r i u) = max (Ideal.sqrt (sqNorm (lineOf 128 x0 r) i)) (Ideal.ofBits .f32 0x322BCC77#32) := by
  unfold floored
  show max (Ideal.sqrt (shapeCast S128x32x1 (sqs x0) shapeCasts_S128x32_S128x32x1 (ix3 r i u))) (Ideal.ofBits .f32 0x322BCC77#32) = _
  rw [shapeCast_ab_ab1_apply, sqs_at]

theorem scaled_at (r : Fin 128) (i : Fin 32) (d : Fin 256) : scaled x0 (ix3 r i d) = unitv (lineOf 128 x0 r) i d := by
  unfold scaled
  show Ideal.div (x0 (ix3 r i d)) (broadcastTo S128x32x256 (floored x0) broadcasts_S128x32x1_S128x32x256 (ix3 r i d)) = _
  rw [broadcastTo_ab1_abc_apply, floored_at]
  rfl

theorem sims_at (r : Fin 128) (i j : Fin 32) : sims x0 (ix3 r i j) = sim (lineOf 128 x0 r) i j := by
  unfold sims
  refine (gram_apply _ r i j).trans ?_
  show _ = ∑ d : Fin 256, _
  refine Finset.sum_congr rfl fun k _ => ?_
  rw [scaled_at, scaled_at]

theorem same_at (r : Fin 128) (i j : Fin 32) :
    same x1 (ix3 r i j) = IntOp.cmpi .eq (segOf 128 x1 r i) (segOf 128 x1 r j) := by
  unfold same
  show IntOp.cmpi .eq (broadcastTo S128x32x32 (shapeCast S128x32x1 x1 shapeCasts_S128x32_S128x32x1) broadcasts_S128x32x1_S128x32x32 (ix3 r i j))
    (broadcastTo S128x32x32 (shapeCast S128x1x32 x1 shapeCasts_S128x32_S128x1x32) broadcasts_S128x1x32_S128x32x32 (ix3 r i j)) = _
  rw [broadcastTo_ab1_abc_apply, shapeCast_ab_ab1_apply, broadcastTo_a1b_acb_apply, shapeCast_ab_a1b_apply]
  rfl

theorem tri_at (r : Fin 128) (i j : Fin 32) : tri (ix3 r i j) = upper i j := by
  unfold tri
  rw [broadcastTo_1bc_abc_apply, shapeCast_ab_1ab_apply]
  show FloatOps.sitofp (F := Ideal) .f32 ((IntOp.cmpi .slt (iota .tc S32x32 32 [0] iota_S32x32_d0_w32 (ix2 i j))
    (iota .tc S32x32 32 [1] iota_S32x32_d1_w32 (ix2 i j))).setWidth 32) = _
  rw [iota_single_apply, iota_single_apply]
  exact Masks.kernel_factor i j

theorem masked_at (r : Fin 128) (i j : Fin 32) :
    masked x0 x1 (ix3 r i j) = pair (lineOf 128 x0 r) (segOf 128 x1 r) i j := by
  unfold masked
  show Scalar.select (same x1 (ix3 r i j)) (Ideal.ofBits .f32 0x3F800000#32 - sims x0 (ix3 r i j))
    (max (sims x0 (ix3 r i j) - Ideal.ofBits .f32 0x3F000000#32) (Ideal.ofBits .f32 0x00000000#32)) * tri (ix3 r i j) = _
  rw [same_at, sims_at, tri_at, Masks.select_cmpi_eq]
  rfl

/-- The three nested sums of an array of pair losses: the sum over the poems of the sums over the pairs. -/
theorem total_at (v : FVec Ideal S128x32x32 .f32) (u w : Fin 1) :
    total v (ix2 u w) = ∑ r : Fin 128, ∑ i : Fin 32, ∑ j : Fin 32, v (ix3 r i j) := by
  unfold total
  rw [shapeCast_a_a1_apply]
  refine (col128 _ _ _ _ u).trans ?_
  refine Finset.sum_congr rfl fun r _ => ?_
  rw [shapeCast_a_a1_apply]
  refine (rows32 _ _ _ _ r).trans ?_
  refine Finset.sum_congr rfl fun i _ => ?_
  exact lanes32 _ _ _ _ r i

/-- The body's partial loss, read at the block's one index, is the loss of the block's 128 poems. -/
theorem pay_at (u w : Fin 1) : k0_pay3 (F := Ideal) x0 x1 (ix2 u w) = batch 128 x0 x1 := by
  rw [pay_eq, total_at]
  exact Finset.sum_congr rfl fun r _ => Finset.sum_congr rfl fun i _ => Finset.sum_congr rfl fun j _ => masked_at x0 x1 r i j

end Cert.KernelIdeal.BlockLoss

end
-- ==== Proof.KernelRun.lean ====
/-
  The kernel's run at the exact instance: its result is the mean pair loss of the whole batch.

  Grid point `t` stages poems `128 t … 128 t + 127` and their labels, and the body adds the block's partial loss to
  the 1×1 accumulator, which is reset at the first point and written back after the last.  By induction on the point
  the accumulator after point `n` holds the sum of the partial losses of points `0 … n`; after point 31 that is the
  sum over the 32 blocks of the sums over their 128 poems, which is the sum over the 4096 poems.  The host then
  reads the 1×1 array as a scalar and divides by the number of counted pairs.
-/
import proofs.«152575_j80152679678796_2_alg».proof.Proof.Gen.KernelIdeal.Frame
import proofs.«152575_j80152679678796_2_alg».proof.Proof.BodyPieces
import proofs.«152575_j80152679678796_2_alg».proof.Proof.BlockLoss
import proofs.«152575_j80152679678796_2_alg».proof.Proof.PairSum
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx Cert.PairSum

variable (m : (ℓ : Loc nD τ sig) → Buf (Elt Ideal) ℓ) (ρ : Dev nD → PrngReg)

/-! ## The blocks are rows of the arguments -/

/-- Window 0's block index at point `t` is `(t, 0, 0)`, window 1's `(t, 0)`: decided over the grid. -/
theorem index_facts : ∀ t : Fin cfg0.N, (win0_0.index t 0 = t.val ∧ win0_0.index t 1 = 0 ∧ win0_0.index t 2 = 0)
    ∧ (win0_1.index t 0 = t.val ∧ win0_1.index t 1 = 0) :=
  (by decide +kernel : ∀ t : Fin grid0.N, (win0_0.index t 0 = t.val ∧ win0_0.index t 1 = 0 ∧ win0_0.index t 2 = 0)
    ∧ (win0_1.index t 0 = t.val ∧ win0_1.index t 1 = 0))

/-- Entry `r` of the block of point `t`, as a batch entry. -/
def entryAt (t : Fin cfg0.N) (r : Fin 128) : Fin 4096 :=
  ⟨128 * t.val + r.val, by have := lt_of_lt_of_eq t.isLt (show cfg0.N = 32 from N_0); have := r.isLt; omega⟩

/-- The embeddings' block at point `t` holds poems `128 t + r`. -/
theorem blk0_at (c : Dev nD) (t : Fin cfg0.N) (r : Fin 128) (i : Fin 32) (d : Fin 256) :
    (iblk m c 0 t : Vec Ideal S128x32x256 .f32) (ix3 r i d)
      = (m ((c : Thread nD τ).loc main_arg0) : S4096x32x256.Idx → EReal) (ix3 (entryAt t r) i d) := by
  have hi := (index_facts t).1
  unfold iblk
  rw [View.read_apply]
  show V m c main_arg0 _ = m (c.tc.loc main_arg0) _
  unfold V
  congr 1
  funext a
  apply Fin.ext
  match a with
  | ⟨0, _⟩ => show win0_0.index t 0 * 128 + 1 * r.val = 128 * t.val + r.val; rw [hi.1]; omega
  | ⟨1, _⟩ => show win0_0.index t 1 * 32 + 1 * i.val = i.val; rw [hi.2.1]; omega
  | ⟨2, _⟩ => show win0_0.index t 2 * 256 + 1 * d.val = d.val; rw [hi.2.2]; omega

/-- The labels' block at point `t` holds the labels of poems `128 t + r`. -/
theorem blk1_at (c : Dev nD) (t : Fin cfg0.N) (r : Fin 128) (i : Fin 32) :
    (iblk m c 1 t : Vec Ideal S128x32 .i32) (ix2 r i)
      = (m ((c : Thread nD τ).loc main_arg1) : S4096x32.Idx → BitVec 32) (ix2 (entryAt t r) i) := by
  have hi := (index_facts t).2
  unfold iblk
  rw [View.read_apply]
  show V m c main_arg1 _ = m (c.tc.loc main_arg1) _
  unfold V
  congr 1
  funext a
  apply Fin.ext
  match a with
  | ⟨0, _⟩ => show win0_1.index t 0 * 128 + 1 * r.val = 128 * t.val + r.val; rw [hi.1]; omega
  | ⟨1, _⟩ => show win0_1.index t 1 * 32 + 1 * i.val = i.val; rw [hi.2]; omega

/-! ## The accumulator, point by point -/

/-- The partial loss of point `n` (zero past the grid, where it is never used). -/
def part (c : Dev nD) (n : ℕ) : EReal :=
  if h : n < cfg0.N then batch 128 (iblk m c 0 ⟨n, h⟩ : Vec Ideal S128x32x256 .f32) (iblk m c 1 ⟨n, h⟩ : Vec Ideal S128x32 .i32) else 0

theorem part_of_lt (c : Dev nD) (n : ℕ) (h : n < cfg0.N) :
    part m c n = batch 128 (iblk m c 0 ⟨n, h⟩ : Vec Ideal S128x32x256 .f32) (iblk m c 1 ⟨n, h⟩ : Vec Ideal S128x32 .i32) := by
  unfold part; rw [dif_pos h]

/-- After point `n` the accumulator holds the partial losses of points `0 … n`, summed. -/
theorem outsAt_eq (c : Dev nD) : ∀ (n : ℕ) (h : n < cfg0.N),
    outsAt0 m c n h = fun _ => ∑ k ∈ Finset.range (n + 1), part m c k
  | 0, h => by
    refine (outsAt0_A m c ⟨0, h⟩ rfl).trans ((BodyPieces.out_first (F := Ideal) c (grid0.coords ⟨0, h⟩) (ms0_0 ⟨0, h⟩) (hs0_0 ⟨0, h⟩)
      (ms0_1 ⟨0, h⟩) (hs0_1 ⟨0, h⟩) (ms0_2 ⟨0, h⟩) (hs0_2 ⟨0, h⟩) ((hcond0_0 ⟨0, h⟩).mpr rfl) (iblk m c 0 ⟨0, h⟩) (iblk m c 1 ⟨0, h⟩)).trans ?_)
    funext y
    obtain ⟨u, w, rfl⟩ : ∃ (u w : Fin 1), y = ix2 u w := ⟨y 0, y 1, eq_ix2 y⟩
    show Ideal.ofBits .f32 0x00000000#32 + k0_pay3 (F := Ideal) (iblk m c 0 ⟨0, h⟩) (iblk m c 1 ⟨0, h⟩) (ix2 u w) = _
    rw [Ideal.ofBits_zero_f32, zero_add, Finset.sum_range_one, part_of_lt m c 0 h]
    exact BlockLoss.pay_at (iblk m c 0 ⟨0, h⟩) (iblk m c 1 ⟨0, h⟩) u w
  | n + 1, h => by
    have hN : cfg0.N = 32 := N_0
    have hB : ¬(⟨n + 1, h⟩ : Fin cfg0.N).val % 32 = 0 := by dsimp only; omega
    refine (outsAt0_B m c ⟨n + 1, h⟩ hB).trans ((BodyPieces.out_later (F := Ideal) c (grid0.coords ⟨n + 1, h⟩) (ms0_0 ⟨n + 1, h⟩) (hs0_0 ⟨n + 1, h⟩)
      (ms0_1 ⟨n + 1, h⟩) (hs0_1 ⟨n + 1, h⟩) (ms0_2 ⟨n + 1, h⟩) (hs0_2 ⟨n + 1, h⟩) (fun hh => hB ((hcond0_0 ⟨n + 1, h⟩).mp hh))
      (iblk m c 0 ⟨n + 1, h⟩) (iblk m c 1 ⟨n + 1, h⟩) (outsAt0 m c n (Nat.lt_of_succ_lt h))).trans ?_)
    funext y
    obtain ⟨u, w, rfl⟩ : ∃ (u w : Fin 1), y = ix2 u w := ⟨y 0, y 1, eq_ix2 y⟩
    show outsAt0 m c n (Nat.lt_of_succ_lt h) (ix2 u w) + k0_pay3 (F := Ideal) (iblk m c 0 ⟨n + 1, h⟩) (iblk m c 1 ⟨n + 1, h⟩) (ix2 u w) = _
    rw [outsAt_eq c n (Nat.lt_of_succ_lt h), Finset.sum_range_succ _ (n + 1), part_of_lt m c (n + 1) h]
    exact congrArg (_ + ·) (BlockLoss.pay_at (iblk m c 0 ⟨n + 1, h⟩) (iblk m c 1 ⟨n + 1, h⟩) u w)

/-! ## The sum of the partial losses is the batch loss -/

/-- The batch loss of the arguments on core `c`. -/
def lossOf (c : Dev nD) : EReal :=
  batch 4096 (m ((c : Thread nD τ).loc main_arg0) : S4096x32x256.Idx → EReal) (m ((c : Thread nD τ).loc main_arg1) : S4096x32.Idx → BitVec 32)

theorem parts_sum (c : Dev nD) : ∑ k ∈ Finset.range 32, part m c k = lossOf m c := by
  have hN : cfg0.N = 32 := N_0
  unfold lossOf batch
  rw [sum_blocks, Finset.sum_range]
  refine Finset.sum_congr rfl fun t _ => ?_
  have ht : t.val < cfg0.N := by rw [hN]; exact t.isLt
  rw [part_of_lt m c t.val ht]
  unfold batch
  refine Finset.sum_congr rfl fun r _ => ?_
  have e0 : lineOf 128 (iblk m c 0 ⟨t.val, ht⟩ : Vec Ideal S128x32x256 .f32) r
      = lineOf 4096 (m ((c : Thread nD τ).loc main_arg0) : S4096x32x256.Idx → EReal) (entry t r) :=
    funext fun i => funext fun d => blk0_at m c ⟨t.val, ht⟩ r i d
  have e1 : segOf 128 (iblk m c 1 ⟨t.val, ht⟩ : Vec Ideal S128x32 .i32) r
      = segOf 4096 (m ((c : Thread nD τ).loc main_arg1) : S4096x32.Idx → BitVec 32) (entry t r) :=
    funext fun i => blk1_at m c ⟨t.val, ht⟩ r i
  rw [e0, e1]

/-! ## The result array and the host's tail -/

/-- What the 1×1 result array ends holding. -/
def resultArr (c : Dev nD) : Buf (Elt Ideal) ((c : Thread nD τ).loc main_v0) := fun _ => lossOf m c

/-- The last grid point. -/
def tLast : Fin cfg0.N := ⟨31, by rw [show cfg0.N = 32 from N_0]; decide⟩

/-- The one write-back, after the last point, writes the whole sum. -/
theorem flushed_eq (c : Dev nD) (t : Fin cfg0.N) (hf : (cfg0.win 2).flush t = true) :
    (dats m 0 c).flushed 2 t = ((cfg0.win 2).blk t).view.read (Elt Ideal) (resultArr m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_eq]
  funext y
  rw [View.read_apply]
  show ∑ k ∈ Finset.range (31 + 1), part m c k = lossOf m c
  exact parts_sum m c

/-- So the result array ends holding the batch loss. -/
theorem final_v0 (c : Dev nD) : (dats m 0 c).arrAt 2 cfg0.N = resultArr m c :=
  (dats m 0 c).arrAt_eq_of_cover 2 (resultArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host's tail: the 1×1 array read as a scalar, divided by the number of counted pairs. -/
theorem tail_eq (c : Dev nD) :
    Pipeline.afterTail₀ cfgs (dats m) 0 (V0 m) [hostOps1] c main_v2 = mean (lossOf m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v0)
      = resultArr m c :=
    (Pipeline.withArrays_arr spec0 launch0.win.arr_inj c _ _ 2).trans (final_v0 m c)
  rw [hw]
  rfl

/-- Every buffer the claim speaks of, after the kernel's run: the result at the mean pair loss of the batch, the
    arguments as they were. -/
theorem run : θ_run defs (onTc (τ := τ) (main (F := Ideal))) ⟨m, fun _ => 0, ρ⟩ fun r => ∀ c : Dev nD,
      r.2.mem ((c.tc : Thread nD τ).loc main_v2) = mean (lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue

end
-- ==== Proof.RefLoss.lean ====
/-
  The reference computes the batch loss of `PairSum`.

  Read one operation at a time, the reference's arrays are, index by index: the scaled line
  `x / max (sqrt (0 + Σ x²)) eps` (the host's reduce starts from the zero word, which is the extended real `0`), the
  cosine similarity as the contraction of the scaled lines over the 256 features, the two branches `1 - sim` and
  `max (sim - 1/2) 0` chosen by the equality of the two rhyme labels, and the strict-upper-triangle factor.  The sum
  over the rank-3 index set [4096, 32, 32] is the sum over the poems of the sums over their pairs.
-/
import proofs.«152575_j80152679678796_2_alg».proof.Proof.Gen.ReferenceIdeal.Read
import proofs.«152575_j80152679678796_2_alg».proof.Proof.PairSum
import proofs.«152575_j80152679678796_2_alg».proof.Proof.Masks

noncomputable section

open scoped BigOperators

namespace Cert.ReferenceIdeal.RefLoss

open Cert.ReferenceIdeal Cert.ReferenceIdeal.Read Idealize.ShloMosaic Idealize.ShloMosaic.ValueIdx Cert.PairSum

/-! ## Where each layout operation reads -/

theorem c0v1_idx_eq (b : Fin 4096) (i : Fin 32) (k : Fin 256) : idx_main_call0_v1 (ix2 b i) k = ix3 b i k :=
  funext fun a => Fin.ext (by match a with | ⟨0, _⟩ => rfl | ⟨1, _⟩ => rfl | ⟨2, _⟩ => rfl)
theorem c0v2_idx_eq (b : Fin 4096) (i : Fin 32) (u : Fin 1) : idx_main_call0_v2 (ix3 b i u) = ix2 b i :=
  funext fun a => Fin.ext (by match a with | ⟨0, _⟩ => rfl | ⟨1, _⟩ => rfl)
theorem v3_idx_eq (b : Fin 4096) (i : Fin 32) (d : Fin 256) : idx_main_v3 (ix3 b i d) = ix3 b i (0 : Fin 1) :=
  funext fun a => Fin.ext (by match a with | ⟨0, _⟩ => rfl | ⟨1, _⟩ => rfl | ⟨2, _⟩ => rfl)
theorem lidx_eq (b : Fin 4096) (i j : Fin 32) (k : Fin 256) : lidx_main_v5 (ix3 b i j) k = ix3 b i k :=
  funext fun a => Fin.ext (by match a with | ⟨0, _⟩ => rfl | ⟨1, _⟩ => rfl | ⟨2, _⟩ => rfl)
theorem ridx_eq (b : Fin 4096) (i j : Fin 32) (k : Fin 256) : ridx_main_v5 (ix3 b i j) k = ix3 b j k :=
  funext fun a => Fin.ext (by match a with | ⟨0, _⟩ => rfl | ⟨1, _⟩ => rfl | ⟨2, _⟩ => rfl)
theorem v8_idx_eq (b : Fin 4096) (i j : Fin 32) : idx_main_v8 (ix3 b i j) = ix3 b i (0 : Fin 1) :=
  funext fun a => Fin.ext (by match a with | ⟨0, _⟩ => rfl | ⟨1, _⟩ => rfl | ⟨2, _⟩ => rfl)
theorem v6_idx_eq (b : Fin 4096) (i : Fin 32) (u : Fin 1) : idx_main_v6 (ix3 b i u) = ix2 b i :=
  funext fun a => Fin.ext (by match a with | ⟨0, _⟩ => rfl | ⟨1, _⟩ => rfl)
theorem v9_idx_eq (b : Fin 4096) (i j : Fin 32) : idx_main_v9 (ix3 b i j) = ix3 b (0 : Fin 1) j :=
  funext fun a => Fin.ext (by match a with | ⟨0, _⟩ => rfl | ⟨1, _⟩ => rfl | ⟨2, _⟩ => rfl)
theorem v7_idx_eq (b : Fin 4096) (u : Fin 1) (j : Fin 32) : idx_main_v7 (ix3 b u j) = ix2 b j :=
  funext fun a => Fin.ext (by match a with | ⟨0, _⟩ => rfl | ⟨1, _⟩ => rfl)
theorem v21_idx_eq (b : Fin 4096) (i j : Fin 32) : idx_main_v21 (ix3 b i j) = ix3 (0 : Fin 1) i j :=
  funext fun a => Fin.ext (by match a with | ⟨0, _⟩ => rfl | ⟨1, _⟩ => rfl | ⟨2, _⟩ => rfl)
theorem v19_idx_eq (u : Fin 1) (i j : Fin 32) : idx_main_v19 (ix3 u i j) = ix2 i j :=
  funext fun a => Fin.ext (by match a with | ⟨0, _⟩ => rfl | ⟨1, _⟩ => rfl)

/-! ## The stages at an index -/

variable (x0 : (⟨S4096x32x256, .f32⟩ : BufTy).Contents (Elt Ideal)) (x1 : (⟨S4096x32, .i32⟩ : BufTy).Contents (Elt Ideal))

/-- The reduce over the features, from the zero word, is the squared length of the line. -/
theorem sq_at (b : Fin 4096) (i : Fin 32) :
    val_main_call0_v1 (F := Ideal) x0 (ix2 b i) = sqNorm (lineOf 4096 x0 b) i := by
  rw [val_main_call0_v1_apply, val_main_call0_cst_apply]
  show Ideal.ofBits .f32 0x00000000#32 + _ = ∑ d : Fin 256, _
  rw [Ideal.ofBits_zero_f32, zero_add]
  refine Finset.sum_congr rfl fun k _ => ?_
  rw [val_main_call0_v0_apply, c0v1_idx_eq]
  rfl

/-- The quotient by the floored norm is the scaled line. -/
theorem unit_at (b : Fin 4096) (i : Fin 32) (d : Fin 256) :
    val_main_v4 (F := Ideal) x0 (ix3 b i d) = unitv (lineOf 4096 x0 b) i d := by
  rw [val_main_v4_apply, val_main_v3_apply, v3_idx_eq, val_main_v2_apply, val_main_v0_apply, val_main_call0_v2_apply,
    c0v2_idx_eq, sq_at, val_main_v1_apply, val_main_cst_apply]
  rfl

/-- The batched contraction is the cosine similarity. -/
theorem sim_at (b : Fin 4096) (i j : Fin 32) :
    val_main_v5 (F := Ideal) x0 (ix3 b i j) = sim (lineOf 4096 x0 b) i j := by
  rw [val_main_v5_apply]
  show _ = ∑ d : Fin 256, _
  refine Finset.sum_congr rfl fun k _ => ?_
  rw [lidx_eq, ridx_eq, unit_at, unit_at]

/-- The converted triangle mask is the strict-upper-triangle factor. -/
theorem upper_at (b : Fin 4096) (i j : Fin 32) : val_main_v21 (F := Ideal) (ix3 b i j) = upper i j := by
  rw [val_main_v21_apply, v21_idx_eq, val_main_v20_apply, val_main_v19_apply, v19_idx_eq, val_main_v18_apply,
    val_main_call3_v4_apply, val_main_call3_v2_apply, val_main_call3_v0_apply, val_main_call3_v1_apply, val_main_call3_c_apply,
    val_main_call3_v3_apply, val_main_call3_v5_apply, val_main_call3_c_0_apply, val_main_v17_apply, val_main_c_apply]
  exact Masks.reference_factor i j

/-- The masked pair loss. -/
theorem pair_at (b : Fin 4096) (i j : Fin 32) :
    val_main_v22 (F := Ideal) x0 x1 (ix3 b i j) = pair (lineOf 4096 x0 b) (segOf 4096 x1 b) i j := by
  rw [val_main_v22_apply, val_main_v16_apply, val_main_v10_apply, val_main_v8_apply, v8_idx_eq, val_main_v6_apply, v6_idx_eq,
    val_main_v9_apply, v9_idx_eq, val_main_v7_apply, v7_idx_eq, val_main_v12_apply, val_main_v11_apply, val_main_cst_0_apply,
    val_main_v15_apply, val_main_v14_apply, val_main_v13_apply, val_main_cst_1_apply, val_main_call1_v0_apply,
    val_main_call1_cst_apply, sim_at, upper_at, Masks.select_cmpi_eq]
  rfl

/-- The sum over every index is the batch's loss. -/
theorem total_at : val_main_v23 (F := Ideal) x0 x1 ix0 = batch 4096 x0 x1 := by
  rw [val_main_v23_apply, val_main_cst_2_apply]
  show Ideal.ofBits .f32 0x00000000#32 + _ = _
  rw [Ideal.ofBits_zero_f32, zero_add]
  refine (sum_idx3 _).trans ?_
  exact Finset.sum_congr rfl fun b _ => Finset.sum_congr rfl fun i _ => Finset.sum_congr rfl fun j _ => pair_at x0 x1 b i j

/-- The reference's result is the mean pair loss of the batch. -/
theorem result_eq : val_main_v24 (F := Ideal) x0 x1 = mean (batch 4096 x0 x1) := by
  funext i
  have hi := eq_ix0 i
  subst hi
  rw [val_main_v24_apply, val_main_cst_3_apply, total_at]
  rfl

end Cert.ReferenceIdeal.RefLoss

end
-- ==== Proof.lean ====
/-
  The certificate of the rhyme-loss kernel against its reference, at the exact instance.

  Both programs compute, for each of 4096 poems of 32 line-end embeddings, the cosine similarities of all pairs of
  lines (each line scaled by its norm floored at the word nearest 1e-8), charge `1 - sim` to a pair of lines with the
  same rhyme label and `max (sim - 1/2) 0` to any other pair, keep the pairs `i < j`, sum everything and divide by
  the number of counted pairs.  The kernel does it 128 poems at a time, accumulating the blocks' partial sums in a
  1×1 buffer across its 32 grid points; the reference sums the whole [4096, 32, 32] array at once.  On the extended
  reals addition is commutative and associative and the zero word is the neutral element, so the two groupings give
  the same sum; every other operation is the same function of the same elements on both sides (a change of float
  format is the identity, the matrix unit's product into a zero accumulator is the host's contraction, and the two
  ways of building the triangle mask give the same 0/1 factor).  No finiteness of the inputs is needed for that, so the
  precondition is never opened.

  The frames of the two kernel programs are the generated ones; the reference's frame is its generated run with
  the result dropped; the idealization rewrote nothing, so `preserves` is `True`.
-/
import proofs.«152575_j80152679678796_2_alg».proof.Defs
import proofs.«152575_j80152679678796_2_alg».proof.Proof.Gen.Kernel
import proofs.«152575_j80152679678796_2_alg».proof.Proof.Gen.Kernel.Frame
import proofs.«152575_j80152679678796_2_alg».proof.Proof.Gen.KernelIdeal
import proofs.«152575_j80152679678796_2_alg».proof.Proof.Gen.KernelIdeal.Frame
import proofs.«152575_j80152679678796_2_alg».proof.Proof.Gen.ReferenceIdeal
import proofs.«152575_j80152679678796_2_alg».proof.Proof.Gen.Pre_finite_inputs
import proofs.«152575_j80152679678796_2_alg».proof.Proof.Gen.ReferenceIdeal.Run
import proofs.«152575_j80152679678796_2_alg».proof.Proof.Gen.ReferenceIdeal.Read
import proofs.«152575_j80152679678796_2_alg».proof.Proof.KernelRun
import proofs.«152575_j80152679678796_2_alg».proof.Proof.RefLoss
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the mean pair loss of the batch the two memories agree on. -/
theorem algebraic : Cert.algebraic_KernelIdeal_ReferenceIdeal := by
  intro m ρ m' ρ' _ hagree
  refine ⟨fun c => Cert.PairSum.mean (Cert.KernelIdeal.RunValue.lossOf m c), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq _ _).trans ((Cert.ReferenceIdeal.RefLoss.result_eq _ _).trans ?_)
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
